-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S_ : Shape := ⟨0, ![]⟩

class Facts : Prop where
  bcast_S_S2097152x16 : S_.BroadcastsInDim S2097152x16 (![] : Fin 0 → Fin S2097152x16.rank)
  reducesTo_S2097152x16_S_d0_1 : S2097152x16.ReducesTo [0, 1] S_
  h_S_ : 0 < S_.numel

variable [Facts]

def fn {F : FTy → Type} [FloatOps F] (main_arg0 : FVec F S2097152x16 .f32) : IVec S_ 1 :=
  let main_v0 : FVec F S2097152x16 .f32 := Host.absf main_arg0
  let main_cst : FVec F S_ .f32 := constant S_ .f32 0x7F800000#32
  let main_v1 : FVec F S2097152x16 .f32 := broadcastInDim S2097152x16 ![] bcast_S_S2097152x16 main_cst
  let main_v2 : IVec S2097152x16 1 := cmpf .olt main_v0 main_v1
  let main_c : IVec S_ 1 := constantI S_ 1 1#1
  let main_v3 : IVec S_ 1 := (fun x v => Host.reduce IntOp.andi x v reducesTo_S2097152x16_S_d0_1 h_S_) main_v2 main_c
  main_v3
-- ==== Kernel.lean ====
abbrev S2097152x16 : Shape := ⟨2, ![2097152, 16]⟩
abbrev S16384x16 : Shape := ⟨2, ![16384, 16]⟩
abbrev S16384x1 : Shape := ⟨2, ![16384, 1]⟩

abbrev nBuf : Space → Nat
  | .hbm => 2
  | .vmem => 4
  | .smem => 0
  | _ => 0

abbrev bufTy : (tb : Table) → Fin (tcTables nBuf tb) → BufTy
  | .hbm, ⟨0, _⟩ => ⟨S2097152x16, .f32⟩
  | .hbm, ⟨1, _⟩ => ⟨S2097152x16, .f32⟩
  | .local _ .vmem, ⟨0, _⟩ => ⟨S16384x16, .f32⟩
  | .local _ .vmem, ⟨1, _⟩ => ⟨S16384x16, .f32⟩
  | .local _ .vmem, ⟨2, _⟩ => ⟨S16384x16, .f32⟩
  | .local _ .vmem, ⟨3, _⟩ => ⟨S16384x16, .f32⟩
  | _, _ => ⟨S2097152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x16_S16384x16_0_0 : ∀ a, (![0, 0] : Fin 2 → Nat) a + S16384x16.size a ≤ S16384x16.size a
  h_S16384x16 : 0 < S16384x16.numel
  slices_S16384x16_o0_0_S16384x1 : S16384x16.Slices ![0, 0] S16384x1
  broadcasts_S16384x1_S16384x16 : S16384x1.Broadcasts S16384x16
  iota_S16384x16_d1_w32 : S16384x16.Iotas .tc 32 [1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S2097152x16.size a
  hwx0_0 : ∀ i : grid0.Coords, EltTy.bits .f32 = 32 ∨ (Rect.block (s := S2097152x16) S16384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x16.size a ≤ S2097152x16.size a
  hwx0_1 : ∀ i : grid0.Coords, EltTy.bits .f32 = 32 ∨ (Rect.block (s := S2097152x16) S16384x16.size (cc0_transform_1 i) (hinb0_1 i)).WholeWords (EltTy.packing .f32)

variable [Facts₀]

abbrev win0_0 : Pipeline.Window sig grid0 :=
  Pipeline.Window.ofSpec (Memref.whole main_arg0) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2097152x16 : Shape := ⟨2, ![2097152, 16]⟩
abbrev S2097152x1 : Shape := ⟨2, ![2097152, 1]⟩
abbrev S2097152 : Shape := ⟨1, ![2097152]⟩
abbrev S_ : Shape := ⟨0, ![]⟩
abbrev S1 : Shape := ⟨1, ![1]⟩

abbrev nBuf : Space → Nat
  | .hbm => 10
  | .vmem => 0
  | .smem => 0
  | _ => 0

abbrev bufTy : (tb : Table) → Fin (tcTables nBuf tb) → BufTy
  | .hbm, ⟨0, _⟩ => ⟨S2097152x16, .f32⟩
  | .hbm, ⟨1, _⟩ => ⟨S2097152x16, .f32⟩
  | .hbm, ⟨2, _⟩ => ⟨S2097152x1, .f32⟩
  | .hbm, ⟨3, _⟩ => ⟨S2097152, .f32⟩
  | .hbm, ⟨4, _⟩ => ⟨S2097152x1, .f32⟩
  | .hbm, ⟨5, _⟩ => ⟨S2097152, .f32⟩
  | .hbm, ⟨6, _⟩ => ⟨S2097152, .f32⟩
  | .hbm, ⟨7, _⟩ => ⟨S_, .i32⟩
  | .hbm, ⟨8, _⟩ => ⟨S1, .i32⟩
  | .hbm, ⟨9, _⟩ => ⟨S2097152x16, .f32⟩
  | _, _ => ⟨S2097152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  slices_S2097152x16_S2097152x1_0_0 : S2097152x16.Slices ![0, 0] S2097152x1
  shapeCasts_S2097152x1_S2097152 : S2097152x1.ShapeCasts S2097152
  slices_S2097152x16_S2097152x1_0_1 : S2097152x16.Slices ![0, 1] S2097152x1
  bcast_S_S1 : S_.BroadcastsInDim S1 (![] : Fin 0 → Fin S1.rank)
  scatter_S2097152x16_S1_S2097152_0_1_1_0_wf : ScatterDims.WF S2097152x16 S1 S2097152 [0] [1] [1] 0

variable [Facts₀]

def scatter_S2097152x16_S1_S2097152_0_1_1_0 : ScatterDims S2097152x16 S1 S2097152 where
  updateWindowDims := [0]
  insertedWindowDims := [1]
  scatterDimsToOperandDims := [1]
  indexVectorDim := 0
  wf := scatter_S2097152x16_S1_S2097152_0_1_1_0_wf

class Facts : Prop extends Facts₀ where

variable [Facts]
-- ==== Proof.ZExpect.lean ====
/-
  Cosines of the entries of a matrix with sixteen columns, column 1 multiplied by column 0.

  Entry (r, q) of the result is cos x(r, 0) · cos x(r, 1) in column 1 and cos x(r, q) in every other column, so each row
  of the result depends on that row of x only. (The reference's source reads a row as sixteen rotation angles and the
  result as the expectations ⟨Z_q⟩ after one controlled-not from qubit 0 to qubit 1, which multiplies the first two
  cosines into qubit 1 and leaves the others; nothing here uses that reading.) The cosine is the one of the extended
  reals (the real cosine on the reals, ⊥ at both infinities) and the product the extended reals'; nothing below asks the
  entries of x to be finite.
-/
import Idealize.ShloMosaic.PureOps.Ideal
import Idealize.ShloMosaic.Lib.ValueIdx

noncomputable section

namespace Cert.ZExpect

open Idealize.ShloMosaic Idealize.ShloMosaic.ValueIdx

/-- Entry (r, q) of the result for an array x with N rows: the product of the row's first two cosines in column 1, the
    entry's own cosine otherwise. -/
def zval {N : Nat} (x : (⟨2, ![N, 16]⟩ : Shape).Idx → EReal) (r : Fin N) (q : Fin 16) : EReal :=
  if q.val = 1 then Ideal.cos (x (ix2 r 0)) * Ideal.cos (x (ix2 r 1)) else Ideal.cos (x (ix2 r q))

/-- The whole result array, entry by entry. -/
def zexp {N : Nat} (x : (⟨2, ![N, 16]⟩ : Shape).Idx → EReal) : (⟨2, ![N, 16]⟩ : Shape).Idx → EReal :=
  fun i => zval x ⟨(i 0).val, idx2_lt0 i⟩ ⟨(i 1).val, idx2_lt1 i⟩

theorem zexp_ix2 {N : Nat} (x : (⟨2, ![N, 16]⟩ : Shape).Idx → EReal) (r : Fin N) (q : Fin 16) :
    zexp x (ix2 r q) = zval x r q := rfl

/-- A row of the result sees that row of x only: two arrays (of any numbers of rows) that agree on a row give the same
    entries there. This is what lets a block of rows be computed alone. -/
theorem zval_congr {N M : Nat} (b : (⟨2, ![M, 16]⟩ : Shape).Idx → EReal) (x : (⟨2, ![N, 16]⟩ : Shape).Idx → EReal)
    (p : Fin M) (r : Fin N) (q : Fin 16) (h : ∀ q' : Fin 16, b (ix2 p q') = x (ix2 r q')) :
    zval b p q = zval x r q := by
  unfold zval
  rw [h 0, h 1, h q]

end Cert.ZExpect

end
-- ==== Proof.BodyZ.lean ====
/-
  What the kernel's body stores, entry by entry. The body takes the cosine of the whole block, spreads the block's first
  column over all sixteen lanes, multiplies lane by lane, and keeps the product in lane 1 only (the lanes are numbered
  by an iota and compared with 1); every other lane keeps its cosine. On a block of rows that is `zval` of the block.
-/
import proofs.«132421_j65481071399199_1_alg».proof.Proof.Gen.KernelIdeal.Skeleton
import proofs.«132421_j65481071399199_1_alg».proof.Proof.ZExpect
import Idealize.ShloMosaic.Lib.Pipeline.Value

noncomputable section

namespace Cert.KernelIdeal.Body

open Cert.KernelIdeal Cert.KernelIdeal.Gen Cert.ZExpect
open Idealize.ShloMosaic Idealize.ShloMosaic.ValueIdx

/-- Lane q's number equals 1 exactly in lane 1. -/
theorem lane_mask (q : Fin 16) : IntOp.cmpi .eq (BitVec.ofNat 32 q.val) 1#32 = if q.val = 1 then 1#1 else 0#1 := by
  revert q; decide

/-- The first column spread over the lanes: every lane of row p reads entry (p, 0). -/
theorem first_col_spread {α : Type} (c : S16384x16.Idx → α) (p : Fin 16384) (q : Fin 16) :
    broadcastTo S16384x16 (extractStridedSlice S16384x1 ![0, 0] c Facts₀.slices_S16384x16_o0_0_S16384x1)
      Facts₀.broadcasts_S16384x1_S16384x16 (ix2 p q) = c (ix2 p 0) := by
  refine (broadcastTo_apply _ Facts₀.broadcasts_S16384x1_S16384x16 (ix2 p q) (ix2 p (0 : Fin 1)) (fun a => ?_)).trans
    (extractStridedSlice_apply ![0, 0] c Facts₀.slices_S16384x16_o0_0_S16384x1 (ix2 p (0 : Fin 1)) (ix2 p (0 : Fin 16)) (fun a => ?_))
  · match a with
    | ⟨0, _⟩ => rfl
    | ⟨1, _⟩ => rfl
  · match a with
    | ⟨0, _⟩ => exact (Nat.zero_add _).symm
    | ⟨1, _⟩ => rfl

/-- THE STORED BLOCK, entry by entry: `zval` of the loaded block. -/
theorem pay_apply (v0 : Vec Ideal S16384x16 .f32) (p : Fin 16384) (q : Fin 16) :
    k0_pay1 (F := Ideal) v0 (ix2 p q) = zval (N := 16384) v0 p q := by
  unfold k0_pay1
  dsimp only
  rw [select_apply, mulf_apply, first_col_spread]
  show Scalar.select (IntOp.cmpi .eq (iota .tc S16384x16 32 [1] Facts₀.iota_S16384x16_d1_w32 (ix2 p q)) 1#32) _ _ = _
  rw [iota_single_apply]
  show Scalar.select (IntOp.cmpi .eq (BitVec.ofNat 32 q.val) 1#32) _ _ = _
  rw [lane_mask]
  unfold zval
  by_cases hq : q.val = 1
  · rw [if_pos hq, if_pos hq, select_one]
    have e : q = 1 := Fin.ext hq
    subst e
    rfl
  · rw [if_neg hq, if_neg hq, select_zero]
    rfl

end Cert.KernelIdeal.Body

end
-- ==== Proof.ArrayZ.lean ====
/-
  From blocks to the array. The grid has 128 points; point t stages rows 16384·t … 16384·t + 16383 of the argument, all
  sixteen columns, and writes the same rows of the result. Since a row of `zexp` depends on that row of the argument
  only, what point t writes back is block t of `zexp` of the whole argument; the 128 blocks tile the rows, so after the
  run the result array is `zexp` of the argument.
-/
import proofs.«132421_j65481071399199_1_alg».proof.Proof.Gen.KernelIdeal.Value
import proofs.«132421_j65481071399199_1_alg».proof.Proof.BodyZ

noncomputable section

namespace Cert.KernelIdeal.Whole

open Cert.KernelIdeal Cert.KernelIdeal.Gen Cert.ZExpect
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The printed index maps over the grid: both windows are at block row t and block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block of 16384 rows at row offset 16384·k: the stored block at y is `zexp` of the whole array at the entry y
    names, when the loaded block holds those rows of the array. -/
theorem pay_eq_zexp (b : Vec Ideal S16384x16 .f32) (x : S2097152x16.Idx → EReal) (y : S16384x16.Idx)
    (i : S2097152x16.Idx) (k : Nat) (hk : k < 128)
    (hi0 : (i 0).val = k * 16384 + (y 0).val) (hi1 : (i 1).val = (y 1).val)
    (hb : ∀ (p : Fin 16384) (q : Fin 16), b (ix2 p q) = x (ix2 ⟨k * 16384 + p.val, by omega⟩ q)) :
    k0_pay1 (F := Ideal) b y = zexp (N := 2097152) x i := by
  have hy0 : (y 0).val < 16384 := idx2_lt0 y
  have hy1 : (y 1).val < 16 := idx2_lt1 y
  have ey : y = ix2 (⟨(y 0).val, hy0⟩ : Fin 16384) (⟨(y 1).val, hy1⟩ : Fin 16) :=
    funext fun a => by match a with | ⟨0, _⟩ => rfl | ⟨1, _⟩ => rfl
  have ei : i = ix2 (⟨k * 16384 + (y 0).val, by omega⟩ : Fin 2097152) (⟨(y 1).val, hy1⟩ : Fin 16) :=
    funext fun a => Fin.ext (by match a with | ⟨0, _⟩ => exact hi0 | ⟨1, _⟩ => exact hi1)
  rw [ey, Cert.KernelIdeal.Body.pay_apply, ei, zexp_ix2]
  exact zval_congr b x _ _ _ (fun q' => hb _ q')

/-- WHAT POINT t WRITES BACK is block t of `zexp` of the argument array. -/
theorem flushed_eq (c : Dev nD) (t : Fin cfg0.N) :
    (dats m 0 c).flushed 1 t = ((cfg0.win 1).blk t).view.read (Elt Ideal) (zexp (N := 2097152) (V m c main_arg0)) := by
  rw [Cert.KernelIdeal.Value.flushed1]
  unfold out0_1
  rw [View.canon_unit_zero off_zero]
  simp only [View.ld_unit_zero (S := S16384x16) off_zero]
  obtain ⟨e0, e1, e2, e3⟩ := idx_facts t
  have ht : t.val < 128 := lt_of_lt_of_eq t.isLt N_0
  funext j
  show k0_pay1 (F := Ideal) (iblk m c 0 t) j = zexp (N := 2097152) (V m c main_arg0) (((cfg0.win 1).blk t).view.emb j)
  refine pay_eq_zexp (iblk m c 0 t) (V m c main_arg0) j (((cfg0.win 1).blk t).view.emb j) t.val ht ?_ ?_ ?_
  · show win0_1.index t (0 : Fin 2) * 16384 + 1 * (j 0).val = _
    omega
  · show win0_1.index t (1 : Fin 2) * 16 + 1 * (j 1).val = _
    omega
  · intro p q
    show V m c main_arg0 (((cfg0.win 0).blk t).view.emb (ix2 p q)) = V m c main_arg0 _
    refine congrArg (V m c main_arg0) (funext fun a => Fin.ext ?_)
    match a with
    | ⟨0, _⟩ => show win0_0.index t (0 : Fin 2) * 16384 + 1 * p.val = t.val * 16384 + p.val; omega
    | ⟨1, _⟩ => show win0_0.index t (1 : Fin 2) * 16 + 1 * q.val = q.val; omega

/-- An index of the array is in point t's block iff each coordinate is in the block's range on its axis. -/
theorem mem_blk (t : Fin cfg0.N) (i : S2097152x16.Idx) :
    i ∈ ((cfg0.win 1).blk t).view.set ↔ ∀ a : Fin 2, win0_1.index t a * S16384x16.size a ≤ (i a).val
      ∧ (i a).val < win0_1.index t a * S16384x16.size a + S16384x16.size a := by
  show i ∈ ((View.whole main_v0).slice (win0_1.rect t)).set ↔ _
  rw [View.set_slice_whole, Rect.mem_set_unit]
  exact Iff.rfl

/-- Every entry of the array is in some point's block: row r is in block r / 16384. -/
theorem cover (i : S2097152x16.Idx) :
    ∃ t : Fin cfg0.N, (cfg0.win 1).flush t = true ∧ i ∈ ((cfg0.win 1).blk t).view.set := by
  have hi0 : (i 0).val < 2097152 := idx2_lt0 i
  have hi1 : (i 1).val < 16 := idx2_lt1 i
  have hlt : (i 0).val / 16384 < cfg0.N := lt_of_lt_of_eq (by omega : (i 0).val / 16384 < 128) N_0.symm
  refine ⟨⟨(i 0).val / 16384, hlt⟩, flush0_1 _, ?_⟩
  rw [mem_blk]
  obtain ⟨e0, e1, e2, e3⟩ := idx_facts ⟨(i 0).val / 16384, hlt⟩
  intro a
  match a with
  | ⟨0, _⟩ =>
    show win0_1.index ⟨(i 0).val / 16384, hlt⟩ (0 : Fin 2) * 16384 ≤ (i 0).val
      ∧ (i 0).val < win0_1.index ⟨(i 0).val / 16384, hlt⟩ (0 : Fin 2) * 16384 + 16384
    rw [e2]
    show (i 0).val / 16384 * 16384 ≤ (i 0).val ∧ (i 0).val < (i 0).val / 16384 * 16384 + 16384
    omega
  | ⟨1, _⟩ =>
    show win0_1.index ⟨(i 0).val / 16384, hlt⟩ (1 : Fin 2) * 16 ≤ (i 1).val
      ∧ (i 1).val < win0_1.index ⟨(i 0).val / 16384, hlt⟩ (1 : Fin 2) * 16 + 16
    rw [e3]
    omega

/-- THE ARRAY after the run is `zexp` of the argument as launched. -/
theorem final (c : Dev nD) :
    (dats m 0 c).arrAt 1 cfg0.N = zexp (N := 2097152) (m ((c : Thread nD τ).loc main_arg0)) :=
  (dats m 0 c).arrAt_eq_of_cover 1 (zexp (N := 2097152) (V m c main_arg0)) (fun t _ => flushed_eq m c t) cover

/-- The kernel's run: the result array at `zexp` of the argument, the argument unchanged. -/
theorem run : θ_run defs (onTc (τ := τ) (main (F := Ideal))) ⟨m, fun _ => 0, ρ⟩ fun r => ∀ c : Dev nD,
      r.2.mem ((c : Thread nD τ).loc main_v0) = zexp (N := 2097152) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.LibScatterWrite.lean ====
/-
  A scatter that writes (its combiner returns the update) read at an entry.

  The host's scatter is a left fold over the update entries, each replacing the result's entry at the place it lands
  on. When the update entries that land on a given place are all one entry, the result there is that update entry,
  whatever the order; where no update entry lands the operand is left.
-/
import Idealize.ShloMosaic.PureOps.ShapeOps
import Idealize.ShloMosaic.Lib.ValueIdx

noncomputable section

open scoped BigOperators

namespace Cert.ScatterWrite

open Idealize.ShloMosaic Idealize.ShloMosaic.ValueIdx

variable {ι α β : Type} [DecidableEq ι]

/-- A fold step g WRITES: update entry n replaces the entry it lands on (R n), if it lands, and changes nothing else. -/
structure Writes (R : β → Option ι) (upd : β → α) (g : (ι → α) → β → (ι → α)) : Prop where
  lands : ∀ r n i, R n = some i → ∀ i', g r n i' = if i' = i then upd n else r i'
  misses : ∀ r n, R n = none → g r n = r

variable {R : β → Option ι} {upd : β → α} {g : (ι → α) → β → (ι → α)}

/-- Where no update entry of the list lands, the fold leaves what was there. -/
theorem foldl_of_not_mem (hg : Writes R upd g) (l : List β) (x : ι → α) (i' : ι) (h : ∀ n ∈ l, R n ≠ some i') :
    l.foldl g x i' = x i' := by
  induction l generalizing x with
  | nil => rfl
  | cons n l ih =>
    rw [List.foldl_cons, ih _ (fun n' hn' => h n' (List.mem_cons_of_mem _ hn'))]
    have hn := h n (List.mem_cons_self ..)
    cases hR : R n with
    | none => rw [hg.misses x n hR]
    | some i =>
      rw [hg.lands x n i hR, if_neg]
      intro e; exact hn (by rw [hR, e])

/-- Where exactly one update entry of the list lands, the fold leaves that update entry. -/
theorem foldl_of_mem (hg : Writes R upd g) (l : List β) (x : ι → α) (i' : ι) (n₀ : β) (hn₀ : n₀ ∈ l)
    (hR : R n₀ = some i') (huniq : ∀ n ∈ l, R n = some i' → n = n₀) :
    l.foldl g x i' = upd n₀ := by
  induction l generalizing x with
  | nil => cases hn₀
  | cons n l ih =>
    rw [List.foldl_cons]
    by_cases hex : ∃ n' ∈ l, R n' = some i'
    · obtain ⟨n', hn', hR'⟩ := hex
      have e : n' = n₀ := huniq n' (List.mem_cons_of_mem _ hn') hR'
      exact ih _ (e ▸ hn') (fun n'' h'' => huniq n'' (List.mem_cons_of_mem _ h''))
    · have hnone : ∀ n' ∈ l, R n' ≠ some i' := fun n' hn' e => hex ⟨n', hn', e⟩
      rw [foldl_of_not_mem hg l _ i' hnone]
      have hn : n = n₀ := by
        rcases List.mem_cons.mp hn₀ with h | h
        · exact h.symm
        · exact absurd hR (hnone n₀ h)
      subst hn
      rw [hg.lands x n i' hR, if_pos rfl]

variable {s si u : Shape} {w : Nat}

/-- The writing scatter at a place where update entry j, and no other, lands. -/
theorem scatter_apply_of_lands (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  refine (foldl_of_mem (R := fun n => d.resultIdx? (u.rowMajor.symm n) idx) (upd := fun n => upd (u.rowMajor.symm n))
    ⟨fun r n i h i' => ?_, fun r n h => ?_⟩ _ x i (u.rowMajor j) (List.mem_finRange _) (by simpa using hj) (fun n _ hn => ?_)).trans (by simp)
  · show (match d.resultIdx? (u.rowMajor.symm n) idx with
      | some i => fun i' => if i' = i then upd (u.rowMajor.symm n) else r i'
      | none => r) i' = _
    rw [show d.resultIdx? (u.rowMajor.symm n) idx = some i from h]
  · show (match d.resultIdx? (u.rowMajor.symm n) idx with
      | some i => fun i' => if i' = i then upd (u.rowMajor.symm n) else r i'
      | none => r) = _
    rw [show d.resultIdx? (u.rowMajor.symm n) idx = none from h]
  · have := huniq _ hn
    rw [← this]; simp

/-- The writing scatter at a place where no update entry lands. -/
theorem scatter_apply_of_misses (d : ScatterDims s si u) (x : s.Idx → α) (idx : IVec si w) (upd : u.Idx → α) (i : s.Idx)
    (hmiss : ∀ j, d.resultIdx? j idx ≠ some i) :
    Host.scatter d (fun _ b => b) x idx upd i = x i := by
  unfold Host.scatter
  refine foldl_of_not_mem (R := fun n => d.resultIdx? (u.rowMajor.symm n) idx) (upd := fun n => upd (u.rowMajor.symm n))
    ⟨fun r n i h i' => ?_, fun r n h => ?_⟩ _ x i (fun n _ => hmiss _)
  · show (match d.resultIdx? (u.rowMajor.symm n) idx with
      | some i => fun i' => if i' = i then upd (u.rowMajor.symm n) else r i'
      | none => r) i' = _
    rw [show d.resultIdx? (u.rowMajor.symm n) idx = some i from h]
  · show (match d.resultIdx? (u.rowMajor.symm n) idx with
      | some i => fun i' => if i' = i then upd (u.rowMajor.symm n) else r i'
      | none => r) = _
    rw [show d.resultIdx? (u.rowMajor.symm n) idx = none from h]

end Cert.ScatterWrite

end
-- ==== Proof.LibColumnSet.lean ====
/-
  One column of a matrix overwritten by a vector: jnp's `x.at[:, k].set(u)`.

  The host lowers it to a scatter with ONE scatter index, the column number, whose update window is a whole column: the
  update's only axis is a window axis and goes to the rows, the column axis is inserted, and the index vector names the
  column. Update entry r therefore lands on row r of the named column and nowhere else, so the result is the vector in
  that column and the operand in every other, generic in the matrix's sizes and in the width of the index word.
-/
import Idealize.ShloMosaic.PureOps.ShapeOps
import Idealize.ShloMosaic.Lib.ValueIdx
import proofs.«132421_j65481071399199_1_alg».proof.Proof.LibScatterWrite

noncomputable section

namespace Cert.ColumnSet

open Idealize.ShloMosaic Idealize.ShloMosaic.ValueIdx

variable {α : Type} {N C w : Nat}

/-- The dimension numbers of a column write into an N×C matrix: one scatter index, update axis 0 a window axis,
    operand axis 1 inserted and named by the index vector. Their conditions are decided on a program's literal shapes. -/
abbrev colDims (N C : Nat) (wf : ScatterDims.WF ⟨2, ![N, C]⟩ ⟨1, ![1]⟩ ⟨1, ![N]⟩ [0] [1] [1] 0) :
    ScatterDims ⟨2, ![N, C]⟩ ⟨1, ![1]⟩ ⟨1, ![N]⟩ where
  updateWindowDims := [0]
  insertedWindowDims := [1]
  scatterDimsToOperandDims := [1]
  indexVectorDim := 0
  wf := wf

variable (wf : ScatterDims.WF ⟨2, ![N, C]⟩ ⟨1, ![1]⟩ ⟨1, ![N]⟩ [0] [1] [1] 0)
variable (j : (⟨1, ![N]⟩ : Shape).Idx) (idx : IVec ⟨1, ![1]⟩ w)

/-- The window starts at row 0: the index vector does not name the row axis. -/
theorem start_row : (colDims N C wf).start j idx 0 = 0 := by
  unfold ScatterDims.start
  rw [dif_neg (show (0 : Fin 2) ∉ ([1] : List (Fin 2)) by decide)]

/-- The window starts at the column the one scatter index names, read signed. -/
theorem start_col : (colDims N C wf).start j idx 1 = (idx (ix1 0)).toInt := by
  unfold ScatterDims.start
  rw [dif_pos (show (1 : Fin 2) ∈ (colDims N C wf).scatterDimsToOperandDims from List.mem_singleton.mpr rfl)]
  congr 2
  funext b
  match b with
  | ⟨0, _⟩ => rfl

/-- Update entry r is row r of the window. -/
theorem window_row : (colDims N C wf).window j 0 = (j 0).val := by
  unfold ScatterDims.window
  have h : (0 : Fin 2) ∈ (colDims N C wf).sKept :=
    show (0 : Fin 2) ∈ (List.finRange 2).filter (fun a => a ∉ ([1] : List (Fin 2))) by decide
  rw [dif_pos h]
  rfl

/-- The window is one column wide. -/
theorem window_col : (colDims N C wf).window j 1 = 0 := by
  unfold ScatterDims.window
  have h : (1 : Fin 2) ∉ (colDims N C wf).sKept :=
    show (1 : Fin 2) ∉ (List.finRange 2).filter (fun a => a ∉ ([1] : List (Fin 2))) by decide
  rw [dif_neg h]

/-- Update entry r lands on row r of column k, when the scatter index reads k. -/
theorem resultIdx?_eq (k : Fin C) (hk : (idx (ix1 0)).toInt = (k.val : Int)) :
    (colDims N C wf).resultIdx? j idx = some (ix2 (j 0) k) := by
  have h : ∀ a, 0 ≤ (colDims N C wf).start j idx a + (colDims N C wf).window j a
      ∧ (colDims N C wf).start j idx a + (colDims N C wf).window j a < (⟨2, ![N, C]⟩ : Shape).size a := by
    intro a
    match a with
    | ⟨0, _⟩ =>
      show 0 ≤ (colDims N C wf).start j idx 0 + ((colDims N C wf).window j 0 : Int)
        ∧ (colDims N C wf).start j idx 0 + ((colDims N C wf).window j 0 : Int) < (N : Int)
      rw [start_row, window_row]; have : (j 0).val < N := (j 0).isLt; omega
    | ⟨1, _⟩ =>
      show 0 ≤ (colDims N C wf).start j idx 1 + ((colDims N C wf).window j 1 : Int)
        ∧ (colDims N C wf).start j idx 1 + ((colDims N C wf).window j 1 : Int) < (C : Int)
      rw [start_col, window_col, hk]; have := k.isLt; omega
  unfold ScatterDims.resultIdx?
  rw [dif_pos h]
  congr 1
  funext a
  refine Fin.ext ?_
  match a with
  | ⟨0, _⟩ =>
    show ((colDims N C wf).start j idx 0 + ((colDims N C wf).window j 0 : Int)).toNat = (j 0).val
    rw [start_row, window_row]; omega
  | ⟨1, _⟩ =>
    show ((colDims N C wf).start j idx 1 + ((colDims N C wf).window j 1 : Int)).toNat = k.val
    rw [start_col, window_col, hk]; omega

/-- THE COLUMN WRITE READ AT (r, q): the vector's entry r in the named column, the operand elsewhere. -/
theorem scatter_col_apply (x : (⟨2, ![N, C]⟩ : Shape).Idx → α) (upd : (⟨1, ![N]⟩ : Shape).Idx → α)
    (k : Fin C) (hk : (idx (ix1 0)).toInt = (k.val : Int)) (r : Fin N) (q : Fin C) :
    Host.scatter (colDims N C wf) (fun _ b => b) x idx upd (ix2 r q) = if q = k then upd (ix1 r) else x (ix2 r q) := by
  by_cases hq : q = k
  · subst hq
    rw [if_pos rfl]
    refine Cert.ScatterWrite.scatter_apply_of_lands _ x idx upd (ix2 r q) (ix1 r) (resultIdx?_eq wf (ix1 r) idx q hk) ?_
    intro j' hj'
    rw [resultIdx?_eq wf j' idx q hk] at hj'
    have e : j' 0 = r := congrArg (fun i : (⟨2, ![N, C]⟩ : Shape).Idx => i 0) (Option.some.inj hj')
    exact (eq_ix1 j').trans (congrArg ix1 e)
  · rw [if_neg hq]
    refine Cert.ScatterWrite.scatter_apply_of_misses _ x idx upd (ix2 r q) ?_
    intro j' hj'
    rw [resultIdx?_eq wf j' idx k hk] at hj'
    exact hq (congrArg (fun i : (⟨2, ![N, C]⟩ : Shape).Idx => i 1) (Option.some.inj hj')).symm

end Cert.ColumnSet

end
-- ==== Proof.RefZ.lean ====
/-
  The reference computes the cosine of every entry, multiplies column 0 by column 1 as two vectors, and writes the
  product over column 1 of the cosines. Read entry by entry that is the function `zexp`: in column 1 the product's entry
  for the row, elsewhere the cosine left as it was.
-/
import proofs.«132421_j65481071399199_1_alg».proof.Proof.Gen.ReferenceIdeal.Read
import proofs.«132421_j65481071399199_1_alg».proof.Proof.ZExpect
import proofs.«132421_j65481071399199_1_alg».proof.Proof.LibColumnSet

noncomputable section

namespace Cert.ReferenceIdeal.RefValue

open Cert.ReferenceIdeal Cert.ReferenceIdeal.Gen Cert.ReferenceIdeal.Read Cert.ZExpect
open Idealize.ShloMosaic Idealize.ShloMosaic.ValueIdx

/-- The one scatter index is the constant 1: the column written. -/
theorem col_word : ((val_main_v6 (F := Ideal)) (ix1 0)).toInt = (((1 : Fin 16)).val : Int) := by
  rw [val_main_v6_apply, val_main_c_apply]
  decide

/-- Entry r of column 0 of the cosines, as the reference slices and flattens it. -/
theorem col0_idx (r : Fin 2097152) : idx_main_v1 (idx_main_v2 (ix1 r)) = ix2 r (0 : Fin 16) :=
  funext fun a => Fin.ext (by match a with | ⟨0, _⟩ => exact Nat.div_one _ | ⟨1, _⟩ => rfl)

/-- Entry r of column 1 of the cosines. -/
theorem col1_idx (r : Fin 2097152) : idx_main_v3 (idx_main_v4 (ix1 r)) = ix2 r (1 : Fin 16) :=
  funext fun a => Fin.ext (by match a with | ⟨0, _⟩ => exact Nat.div_one _ | ⟨1, _⟩ => rfl)

/-- THE REFERENCE IS `zexp`: the column write puts cos x(r,0) · cos x(r,1) in column 1 and leaves cos x(r,q) elsewhere. -/
theorem ref_eq_zexp (x0 : (⟨S2097152x16, .f32⟩ : BufTy).Contents (Elt Ideal)) :
    val_main_v7 (F := Ideal) x0 = zexp (N := 2097152) x0 := by
  funext i
  obtain ⟨r, q, rfl⟩ : ∃ (r : Fin 2097152) (q : Fin 16), i = ix2 r q := ⟨i 0, i 1, eq_ix2 i⟩
  unfold val_main_v7
  refine (Cert.ColumnSet.scatter_col_apply (N := 2097152) (C := 16) Facts₀.scatter_S2097152x16_S1_S2097152_0_1_1_0_wf
    (val_main_v6 (F := Ideal)) (val_main_v0 (F := Ideal) x0) (val_main_v5 (F := Ideal) x0) 1 col_word r q).trans ?_
  rw [zexp_ix2]
  unfold zval
  by_cases hq : q = 1
  · subst hq
    rw [if_pos rfl, if_pos (show ((1 : Fin 16).val = 1) from rfl), val_main_v5_apply, val_main_v2_apply, val_main_v1_apply, val_main_v0_apply,
      val_main_v4_apply, val_main_v3_apply, val_main_v0_apply, col0_idx, col1_idx]
    rfl
  · rw [if_neg hq, if_neg (fun h : q.val = 1 => hq (Fin.ext h)), val_main_v0_apply]
    rfl

end Cert.ReferenceIdeal.RefValue

end
-- ==== Proof.lean ====
/-
  The kernel takes the cosine of a 2097152 × 16 array block of rows by block of rows and, in each row, multiplies the
  cosine in column 1 by the cosine in column 0; the reference takes the cosine of the whole array, multiplies column 0 by
  column 1 as vectors and writes the product over column 1. Entry by entry both are the one function `zexp`
  (Proof/ZExpect.lean): cos x(r,0) · cos x(r,1) in column 1, cos x(r,q) elsewhere, with the same order of the two
  factors, on the extended reals. No law of arithmetic is needed to join the two sides, so the precondition is never
  opened.

  The kernel side: the stored block is `zval` of the loaded block (Proof/BodyZ.lean); a row of `zexp` depends on that
  row only, so point t writes block t of `zexp` of the argument, and the 128 blocks tile the array (Proof/ArrayZ.lean).
  The reference side: a scatter that overwrites one column, read at an entry (Proof/LibScatterWrite.lean,
  Proof/LibColumnSet.lean), over the cosines and the product of the two sliced columns (Proof/RefZ.lean). The ideal
  pass rewrote nothing, so `preserves` is `True`; the three frames are the generated ones.
-/
import proofs.«132421_j65481071399199_1_alg».proof.Defs
import proofs.«132421_j65481071399199_1_alg».proof.Proof.Gen.Kernel
import proofs.«132421_j65481071399199_1_alg».proof.Proof.Gen.Kernel.Skeleton
import proofs.«132421_j65481071399199_1_alg».proof.Proof.Gen.Kernel.Launch
import proofs.«132421_j65481071399199_1_alg».proof.Proof.Gen.Kernel.Points
import proofs.«132421_j65481071399199_1_alg».proof.Proof.Gen.Kernel.Frame
import proofs.«132421_j65481071399199_1_alg».proof.Proof.Gen.KernelIdeal
import proofs.«132421_j65481071399199_1_alg».proof.Proof.Gen.KernelIdeal.Skeleton
import proofs.«132421_j65481071399199_1_alg».proof.Proof.Gen.KernelIdeal.Launch
import proofs.«132421_j65481071399199_1_alg».proof.Proof.Gen.KernelIdeal.Points
import proofs.«132421_j65481071399199_1_alg».proof.Proof.Gen.KernelIdeal.Frame
import proofs.«132421_j65481071399199_1_alg».proof.Proof.Gen.ReferenceIdeal
import proofs.«132421_j65481071399199_1_alg».proof.Proof.Gen.Pre_finite_inputs
import proofs.«132421_j65481071399199_1_alg».proof.Proof.Gen.KernelIdeal.Value
import proofs.«132421_j65481071399199_1_alg».proof.Proof.Gen.ReferenceIdeal.Run
import proofs.«132421_j65481071399199_1_alg».proof.Proof.Gen.ReferenceIdeal.Read
import proofs.«132421_j65481071399199_1_alg».proof.Proof.ArrayZ
import proofs.«132421_j65481071399199_1_alg».proof.Proof.RefZ
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `zexp` of the argument array: the kernel by its blocks, the reference by
    its column write; the arguments agree. -/
theorem algebraic : Cert.algebraic_KernelIdeal_ReferenceIdeal := by
  intro m ρ m' ρ' _ hagree
  refine ⟨fun c => Cert.ZExpect.zexp (N := 2097152) (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_zexp, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
